-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S1600000 : Shape := ⟨1, ![1600000]⟩
abbrev S512x64 : Shape := ⟨2, ![512, 64]⟩
abbrev S64x40 : Shape := ⟨2, ![64, 40]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S512x64 : S_.BroadcastsInDim S512x64 (![] : Fin 0 → Fin S512x64.rank)
  reducesTo_S512x64_S_d0_1 : S512x64.ReducesTo [0, 1] S_
  bcast_S_S64x40 : S_.BroadcastsInDim S64x40 (![] : Fin 0 → Fin S64x40.rank)
  reducesTo_S64x40_S_d0_1 : S64x40.ReducesTo [0, 1] S_

variable [Facts]

def fn_part1 {F : FTy → Type} [FloatOps F] (main_v13 : IVec S_ 1) (main_v16 : IVec S64x40 1) : IVec S_ 1 :=
  let main_c_5 : IVec S_ 1 := constantI S_ 1 1#1
  let main_v17 : IVec S_ 1 := (fun x v => Host.reduce IntOp.andi x v reducesTo_S64x40_S_d0_1 h_S_) main_v16 main_c_5
  let main_v18 : IVec S_ 1 := andi main_v13 main_v17
  main_v18

def fn {F : FTy → Type} [FloatOps F] (main_arg0 : FVec F S100000x512 .f32) (main_arg1 : IVec S1600000 32) (main_arg2 : IVec S1600000 32) (main_arg3 : FVec F S1600000 .f32) (main_arg4 : FVec F S512x64 .f32) (main_arg5 : FVec F S64x40 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S512x64 .f32 := Host.absf main_arg4
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S64x40 .f32 := Host.absf main_arg5
  let main_cst_4 : FVec F S_ .f32 := constant S_ .f32 0x7F800000#32
  let main_v15 : FVec F S64x40 .f32 := broadcastInDim S64x40 ![] bcast_S_S64x40 main_cst_4
  let main_v16 : IVec S64x40 1 := cmpf .olt main_v14 main_v15
  fn_part1 (F := F) main_v13 main_v16
-- ==== Kernel.lean ====
abbrev S100000x512 : Shape := ⟨2, ![100000, 512]⟩
abbrev S1600000 : Shape := ⟨1, ![1600000]⟩
abbrev S512x64 : Shape := ⟨2, ![512, 64]⟩
abbrev S64x40 : Shape := ⟨2, ![64, 40]⟩
abbrev S100000x64 : Shape := ⟨2, ![100000, 64]⟩
abbrev S4000x512 : Shape := ⟨2, ![4000, 512]⟩
abbrev S4000x64 : Shape := ⟨2, ![4000, 64]⟩
abbrev S_ : Shape := ⟨0, ![]⟩
abbrev S1600000x1 : Shape := ⟨2, ![1600000, 1]⟩
abbrev S1600000x64 : Shape := ⟨2, ![1600000, 64]⟩
abbrev S100000x40 : Shape := ⟨2, ![100000, 40]⟩
abbrev S4000x40 : Shape := ⟨2, ![4000, 40]⟩
abbrev S1600000x40 : Shape := ⟨2, ![1600000, 40]⟩

abbrev nBuf : Space → Nat
  | .hbm => 46
  | .vmem => 10
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x64, .f32⟩
  | .hbm, ⟨5, _⟩ => ⟨S64x40, .f32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x1, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S100000x40, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x40, .f32⟩
  | .hbm, ⟨36, _⟩ => ⟨S1600000x1, .f32⟩
  | .hbm, ⟨37, _⟩ => ⟨S1600000x40, .f32⟩
  | .hbm, ⟨38, _⟩ => ⟨S1600000x40, .f32⟩
  | .hbm, ⟨39, _⟩ => ⟨S_, .f32⟩
  | .hbm, ⟨40, _⟩ => ⟨S100000x40, .f32⟩
  | .hbm, ⟨41, _⟩ => ⟨S1600000x1, .i32⟩
  | .hbm, ⟨42, _⟩ => ⟨S100000x40, .f32⟩
  | .hbm, ⟨43, _⟩ => ⟨S_, .f32⟩
  | .hbm, ⟨44, _⟩ => ⟨S100000x40, .f32⟩
  | .hbm, ⟨45, _⟩ => ⟨S100000x40, .f32⟩
  | .local _ .vmem, ⟨0, _⟩ => ⟨S4000x512, .f32⟩
  | .local _ .vmem, ⟨1, _⟩ => ⟨S4000x512, .f32⟩
  | .local _ .vmem, ⟨2, _⟩ => ⟨S512x64, .f32⟩
  | .local _ .vmem, ⟨3, _⟩ => ⟨S4000x64, .f32⟩
  | .local _ .vmem, ⟨4, _⟩ => ⟨S4000x64, .f32⟩
  | .local _ .vmem, ⟨5, _⟩ => ⟨S4000x64, .f32⟩
  | .local _ .vmem, ⟨6, _⟩ => ⟨S4000x64, .f32⟩
  | .local _ .vmem, ⟨7, _⟩ => ⟨S64x40, .f32⟩
  | .local _ .vmem, ⟨8, _⟩ => ⟨S4000x40, .f32⟩
  | .local _ .vmem, ⟨9, _⟩ => ⟨S4000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x40 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x64_S512x64_0_0 : ∀ a, (![0, 0] : Fin 2 → Nat) a + S512x64.size a ≤ S512x64.size a
  h_S512x64 : 0 < S512x64.numel
  inb_S4000x64_S4000x64_0_0 : ∀ a, (![0, 0] : Fin 2 → Nat) a + S4000x64.size a ≤ S4000x64.size a
  h_S4000x64 : 0 < S4000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  shapeCasts_S4000x64_S4000x64 : S4000x64.ShapeCasts S4000x64
  inb_S64x40_S64x40_0_0 : ∀ a, (![0, 0] : Fin 2 → Nat) a + S64x40.size a ≤ S64x40.size a
  h_S64x40 : 0 < S64x40.numel
  inb_S4000x40_S4000x40_0_0 : ∀ a, (![0, 0] : Fin 2 → Nat) a + S4000x40.size a ≤ S4000x40.size a
  h_S4000x40 : 0 < S4000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  dot_S4000x512_S512x64_S4000x64_1_0_0_1_n_n_wf : DotDims.WF S4000x512 S512x64 S4000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x40_S4000x40_1_0_0_1_n_n_wf : DotDims.WF S4000x64 S64x40 S4000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S100000x64.size a
  hwx1_0 : ∀ i : grid1.Coords, EltTy.bits .f32 = 32 ∨ (Rect.block (s := S100000x64) S4000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x40.size a ≤ S64x40.size a
  hwx1_1 : ∀ i : grid1.Coords, EltTy.bits .f32 = 32 ∨ (Rect.block (s := S64x40) S64x40.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x40.size a ≤ S100000x40.size a
  hwx1_2 : ∀ i : grid1.Coords, EltTy.bits .f32 = 32 ∨ (Rect.block (s := S100000x40) S4000x40.size (cc1_transform_2 i) (hinb1_2 i)).WholeWords (EltTy.packing .f32)

variable [Facts₀]

def dot_S4000x512_S512x64_S4000x64_1_0_0_1_n_n : DotDims S4000x512 S512x64 S4000x64 where
  lhsContracting := [1]
  rhsContracting := [0]
  lhsNonContracting := [0]
  rhsNonContracting := [1]
  lhsBatch := []
  rhsBatch := []
  wf := dot_S4000x512_S512x64_S4000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x40_S4000x40_1_0_0_1_n_n : DotDims S4000x64 S64x40 S4000x40 where
  lhsContracting := [1]
  rhsContracting := [0]
  lhsNonContracting := [0]
  rhsNonContracting := [1]
  lhsBatch := []
  rhsBatch := []
  wf := dot_S4000x64_S64x40_S4000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S64x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4000x40.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x512 : Shape := ⟨2, ![100000, 512]⟩
abbrev S1600000 : Shape := ⟨1, ![1600000]⟩
abbrev S512x64 : Shape := ⟨2, ![512, 64]⟩
abbrev S64x40 : Shape := ⟨2, ![64, 40]⟩
abbrev S100000x64 : Shape := ⟨2, ![100000, 64]⟩
abbrev S_ : Shape := ⟨0, ![]⟩
abbrev S1600000x1 : Shape := ⟨2, ![1600000, 1]⟩
abbrev S1600000x64 : Shape := ⟨2, ![1600000, 64]⟩
abbrev S100000x40 : Shape := ⟨2, ![100000, 40]⟩
abbrev S1600000x40 : Shape := ⟨2, ![1600000, 40]⟩

abbrev nBuf : Space → Nat
  | .hbm => 46
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S512x64, .f32⟩
  | .hbm, ⟨5, _⟩ => ⟨S64x40, .f32⟩
  | .hbm, ⟨6, _⟩ => ⟨S100000x64, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x1, .f32⟩
  | .hbm, ⟨17, _⟩ => ⟨S1600000x64, .f32⟩
  | .hbm, ⟨18, _⟩ => ⟨S1600000x64, .f32⟩
  | .hbm, ⟨19, _⟩ => ⟨S_, .f32⟩
  | .hbm, ⟨20, _⟩ => ⟨S100000x64, .f32⟩
  | .hbm, ⟨21, _⟩ => ⟨S1600000x1, .i32⟩
  | .hbm, ⟨22, _⟩ => ⟨S100000x64, .f32⟩
  | .hbm, ⟨23, _⟩ => ⟨S_, .f32⟩
  | .hbm, ⟨24, _⟩ => ⟨S100000x64, .f32⟩
  | .hbm, ⟨25, _⟩ => ⟨S100000x64, .f32⟩
  | .hbm, ⟨26, _⟩ => ⟨S100000x40, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x40, .f32⟩
  | .hbm, ⟨36, _⟩ => ⟨S1600000x1, .f32⟩
  | .hbm, ⟨37, _⟩ => ⟨S1600000x40, .f32⟩
  | .hbm, ⟨38, _⟩ => ⟨S1600000x40, .f32⟩
  | .hbm, ⟨39, _⟩ => ⟨S_, .f32⟩
  | .hbm, ⟨40, _⟩ => ⟨S100000x40, .f32⟩
  | .hbm, ⟨41, _⟩ => ⟨S1600000x1, .i32⟩
  | .hbm, ⟨42, _⟩ => ⟨S100000x40, .f32⟩
  | .hbm, ⟨43, _⟩ => ⟨S_, .f32⟩
  | .hbm, ⟨44, _⟩ => ⟨S100000x40, .f32⟩
  | .hbm, ⟨45, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  dot_S100000x512_S512x64_S100000x64_1_0_0_1_n_n_wf : DotDims.WF S100000x512 S512x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x40_S100000x40_1_0_0_1_n_n_wf : DotDims.WF S100000x64 S64x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x512_S512x64_S100000x64_1_0_0_1_n_n : DotDims S100000x512 S512x64 S100000x64 where
  lhsContracting := [1]
  rhsContracting := [0]
  lhsNonContracting := [0]
  rhsNonContracting := [1]
  lhsBatch := []
  rhsBatch := []
  wf := dot_S100000x512_S512x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its RESULT named.  @main is: the first row-blocked product (25 grid points, each
  a [4000, 512] block of the node features times the whole first weight matrix), sixteen host operations that
  aggregate along the edges and one rectifier, the second row-blocked product, and the same host operations again.
  The buffer contents at the boundaries of these six segments form a chain of valuations, the last of which is `W6`.
  Every weakly fair execution terminates, nothing faults, and in the final memory EVERY unscoped buffer holds what
  the last valuation gives it: in particular the result buffer holds `W6` at the result, and each argument buffer
  holds its launch contents.  The later modules compute `W6` at the result as a function of the arguments.
-/
import proofs.«166497_j27315992003070_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with this statement, which takes
-- unfolding plain definitions in a metavariable's type
set_option backward.isDefEq.respectTransparency.types false in
/-- Every weakly fair execution of @main terminates without a fault; the result buffer ends at the last boundary
    valuation read at the result, and the six argument buffers end as launched. -/
theorem run_result : θ_run defs (onTc (τ := τ) (main (F := F))) ⟨m, fun _ => 0, ρ⟩ (fun r => ∀ c : Dev nD,
      r.2.mem ((c.tc : Thread nD τ).loc main_v29) = W6 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v29 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.HostTail.lean ====
/-
  The host operations between and after the two kernel regions.  After each row-blocked product the program does,
  on the host: wrap negative source indices, gather the product's rows along the edges, scale each gathered row by
  its edge weight, scatter-add the scaled rows to their destination nodes, and rectify.  Each such layer is ONE
  function (`layer1`, `layer2`) of the product array and the three edge arrays, and the host stretches compute it
  from whatever the buffers hold when they start.
-/
import proofs.«166497_j27315992003070_1_alg».proof.Proof.Gen.KernelIdeal.Launch
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- Layer 1's host part, as one function of the product array `h` ([100000, 64]) and the edge arrays: wrap a negative
    source index by the node count, gather row `src e` of `h` for every edge `e`, scale it by the edge weight, add the scaled
    rows into row `dst e` of a zero array, and take the maximum with zero. -/
def layer1 (h : (⟨S100000x64, .f32⟩ : BufTy).Contents (Elt F)) (src dst : (⟨S1600000, .i32⟩ : BufTy).Contents (Elt F))
    (w : (⟨S1600000, .f32⟩ : BufTy).Contents (Elt F)) : (⟨S100000x64, .f32⟩ : BufTy).Contents (Elt F) :=
  maximumf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 dst) (mulf (Host.gather gather_S100000x64_S1600000x1_S1600000x64_1_0_n_n_0_1_164 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x64 ![0, 1] bcast_S1600000x1_S1600000x64_0_1 (broadcastInDim S1600000x1 ![0] bcast_S1600000_S1600000x1_0 w)))) (broadcastInDim S100000x64 ![] bcast_S_S100000x64 (constant S_ .f32 0x00000000#32))

/-- Layer 2's host part, as one function of the product array `h` ([100000, 40]) and the edge arrays: wrap a negative
    source index by the node count, gather row `src e` of `h` for every edge `e`, scale it by the edge weight, add the scaled
    rows into row `dst e` of a zero array, and take the maximum with zero. -/
def layer2 (h : (⟨S100000x40, .f32⟩ : BufTy).Contents (Elt F)) (src dst : (⟨S1600000, .i32⟩ : BufTy).Contents (Elt F))
    (w : (⟨S1600000, .f32⟩ : BufTy).Contents (Elt F)) : (⟨S100000x40, .f32⟩ : BufTy).Contents (Elt F) :=
  maximumf (Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 dst) (mulf (Host.gather gather_S100000x40_S1600000x1_S1600000x40_1_0_n_n_0_1_140 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x40 ![0, 1] bcast_S1600000x1_S1600000x40_0_1 (broadcastInDim S1600000x1 ![0] bcast_S1600000_S1600000x1_0 w)))) (broadcastInDim S100000x40 ![] bcast_S_S100000x40 (constant S_ .f32 0x00000000#32))

set_option maxHeartbeats 2000000 in
/-- The two host stretches after region 0 (the sixteen operations of the aggregation, then the rectifier's three),
    run from ANY buffer contents `W`, leave in the rectifier's result buffer layer 1's function of what `W` holds in
    the region's output buffer and in the three edge arrays. -/
theorem after_layer1 (W : Valuation τ sig (Elt F)) :
    StableHlo.after hostOps1_1 (StableHlo.after hostOps1 W) (Proc.devRef .tc main_v14)
      = layer1 (W (Proc.devRef .tc main_v0)) (W (Proc.devRef .tc main_arg1)) (W (Proc.devRef .tc main_arg2)) (W (Proc.devRef .tc main_arg3)) := by
  unfold layer1
  after_results <;> rfl

set_option maxHeartbeats 2000000 in
/-- They write no argument buffer: argument 1 is as `W` has it. -/
theorem after_layer1_arg1 (W : Valuation τ sig (Elt F)) :
    StableHlo.after hostOps1_1 (StableHlo.after hostOps1 W) (Proc.devRef .tc main_arg1) = W (Proc.devRef .tc main_arg1) := by
  after_results <;> rfl

set_option maxHeartbeats 2000000 in
/-- They write no argument buffer: argument 2 is as `W` has it. -/
theorem after_layer1_arg2 (W : Valuation τ sig (Elt F)) :
    StableHlo.after hostOps1_1 (StableHlo.after hostOps1 W) (Proc.devRef .tc main_arg2) = W (Proc.devRef .tc main_arg2) := by
  after_results <;> rfl

set_option maxHeartbeats 2000000 in
/-- They write no argument buffer: argument 3 is as `W` has it. -/
theorem after_layer1_arg3 (W : Valuation τ sig (Elt F)) :
    StableHlo.after hostOps1_1 (StableHlo.after hostOps1 W) (Proc.devRef .tc main_arg3) = W (Proc.devRef .tc main_arg3) := by
  after_results <;> rfl

set_option maxHeartbeats 2000000 in
/-- They write no argument buffer: argument 5 is as `W` has it. -/
theorem after_layer1_arg5 (W : Valuation τ sig (Elt F)) :
    StableHlo.after hostOps1_1 (StableHlo.after hostOps1 W) (Proc.devRef .tc main_arg5) = W (Proc.devRef .tc main_arg5) := by
  after_results <;> rfl

set_option maxHeartbeats 2000000 in
/-- The two host stretches after region 1 (the sixteen operations of the aggregation, then the rectifier's three),
    run from ANY buffer contents `W`, leave in the rectifier's result buffer layer 2's function of what `W` holds in
    the region's output buffer and in the three edge arrays. -/
theorem after_layer2 (W : Valuation τ sig (Elt F)) :
    StableHlo.after hostOps2_1 (StableHlo.after hostOps2 W) (Proc.devRef .tc main_v29)
      = layer2 (W (Proc.devRef .tc main_v15)) (W (Proc.devRef .tc main_arg1)) (W (Proc.devRef .tc main_arg2)) (W (Proc.devRef .tc main_arg3)) := by
  unfold layer2
  after_results <;> rfl

set_option maxHeartbeats 2000000 in
/-- They write no argument buffer: argument 1 is as `W` has it. -/
theorem after_layer2_arg1 (W : Valuation τ sig (Elt F)) :
    StableHlo.after hostOps2_1 (StableHlo.after hostOps2 W) (Proc.devRef .tc main_arg1) = W (Proc.devRef .tc main_arg1) := by
  after_results <;> rfl

set_option maxHeartbeats 2000000 in
/-- They write no argument buffer: argument 2 is as `W` has it. -/
theorem after_layer2_arg2 (W : Valuation τ sig (Elt F)) :
    StableHlo.after hostOps2_1 (StableHlo.after hostOps2 W) (Proc.devRef .tc main_arg2) = W (Proc.devRef .tc main_arg2) := by
  after_results <;> rfl

set_option maxHeartbeats 2000000 in
/-- They write no argument buffer: argument 3 is as `W` has it. -/
theorem after_layer2_arg3 (W : Valuation τ sig (Elt F)) :
    StableHlo.after hostOps2_1 (StableHlo.after hostOps2 W) (Proc.devRef .tc main_arg3) = W (Proc.devRef .tc main_arg3) := by
  after_results <;> rfl

set_option maxHeartbeats 2000000 in
/-- They write no argument buffer: argument 5 is as `W` has it. -/
theorem after_layer2_arg5 (W : Valuation τ sig (Elt F)) :
    StableHlo.after hostOps2_1 (StableHlo.after hostOps2 W) (Proc.devRef .tc main_arg5) = W (Proc.devRef .tc main_arg5) := by
  after_results <;> rfl

end Cert.KernelIdeal.Tail

end
-- ==== Proof.MatmulPayload.lean ====
/-
  What each kernel body stores, read at an index.  Both bodies load a block of rows and a whole weight matrix, narrow
  both to bf16 (the identity on extended reals), and multiply them on the matrix unit into a zero accumulator.  So
  entry (p, q) of the stored block is the sum over the contracted coordinate k of  block(p, k) · weights(k, q).
-/
import proofs.«166497_j27315992003070_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.TcCoe Idealize.SL.Sem

/-! ## Region 0: a [4000, 512] block times the whole [512, 64] weight matrix -/

/-- In the product's left operand the row is the output's row, -/
theorem lhsIdx0_row (j : S4000x64.Idx) (q : dot_S4000x512_S512x64_S4000x64_1_0_0_1_n_n.contr.Idx) :
    (dot_S4000x512_S512x64_S4000x64_1_0_0_1_n_n.lhsIdx j q 0).val = (j 0).val := by
  unfold DotDims.lhsIdx
  rw [dif_neg (show ¬(0 : Fin S4000x512.rank) ∈ dot_S4000x512_S512x64_S4000x64_1_0_0_1_n_n.lhsBatch by decide), dif_pos (show (0 : Fin S4000x512.rank) ∈ dot_S4000x512_S512x64_S4000x64_1_0_0_1_n_n.lhsNonContracting by decide)]
  rfl
/-- and the column is the contracted coordinate; -/
theorem lhsIdx0_col (j : S4000x64.Idx) (q : dot_S4000x512_S512x64_S4000x64_1_0_0_1_n_n.contr.Idx) :
    (dot_S4000x512_S512x64_S4000x64_1_0_0_1_n_n.lhsIdx j q 1).val = (q ⟨0, by decide⟩).val :=
  dot_S4000x512_S512x64_S4000x64_1_0_0_1_n_n.lhsIdx_val_of_single rfl j q
/-- in the right operand the row is the contracted coordinate, -/
theorem rhsIdx0_row (j : S4000x64.Idx) (q : dot_S4000x512_S512x64_S4000x64_1_0_0_1_n_n.contr.Idx) :
    (dot_S4000x512_S512x64_S4000x64_1_0_0_1_n_n.rhsIdx j q 0).val = (q ⟨0, by decide⟩).val :=
  dot_S4000x512_S512x64_S4000x64_1_0_0_1_n_n.rhsIdx_val_of_single rfl j q
/-- and the column is the output's column. -/
theorem rhsIdx0_col (j : S4000x64.Idx) (q : dot_S4000x512_S512x64_S4000x64_1_0_0_1_n_n.contr.Idx) :
    (dot_S4000x512_S512x64_S4000x64_1_0_0_1_n_n.rhsIdx j q 1).val = (j 1).val := by
  unfold DotDims.rhsIdx
  rw [dif_neg (show ¬(1 : Fin S512x64.rank) ∈ dot_S4000x512_S512x64_S4000x64_1_0_0_1_n_n.rhsBatch by decide), dif_pos (show (1 : Fin S512x64.rank) ∈ dot_S4000x512_S512x64_S4000x64_1_0_0_1_n_n.rhsNonContracting by decide)]
  rfl

/-- Entry (row of `j`, `k`) of the left block. -/
abbrev lrow0 (j : S4000x64.Idx) (k : Fin 512) : S4000x512.Idx := fun a => match a with
  | ⟨0, _⟩ => ⟨(j 0).val, (j 0).isLt⟩
  | ⟨1, _⟩ => ⟨k.val, k.isLt⟩
/-- Entry (`k`, column of `j`) of the weight matrix. -/
abbrev rcol0 (j : S4000x64.Idx) (k : Fin 512) : S512x64.Idx := fun a => match a with
  | ⟨0, _⟩ => ⟨k.val, k.isLt⟩
  | ⟨1, _⟩ => ⟨(j 1).val, (j 1).isLt⟩

/-- What the body stores, at entry `j` of the output block: the sum over `k` of the left block's entry
    (row of `j`, `k`) times the weight matrix's entry (`k`, column of `j`).  The narrowing of both operands to bf16
    is the identity on extended reals, and the accumulator the product starts from is zero. -/
theorem pay0_apply (x0 : Vec Ideal S4000x512 .f32) (x1 : Vec Ideal S512x64 .f32) (j : S4000x64.Idx) :
    k0_pay1 (F := Ideal) x0 x1 j = ∑ k : Fin 512, x0 (lrow0 j k) * x1 (rcol0 j k) := by
  unfold k0_pay1
  refine (Ideal.matmul_constant_zero_apply dot_S4000x512_S512x64_S4000x64_1_0_0_1_n_n none _ _ j).trans ?_
  rw [← Equiv.sum_comp (ValueIdx.contrEquiv1 dot_S4000x512_S512x64_S4000x64_1_0_0_1_n_n 512 rfl rfl).symm]
  refine Finset.sum_congr rfl fun k _ => ?_
  have hk := ValueIdx.contrEquiv1_symm_val dot_S4000x512_S512x64_S4000x64_1_0_0_1_n_n 512 rfl rfl k
  have el : dot_S4000x512_S512x64_S4000x64_1_0_0_1_n_n.lhsIdx j ((ValueIdx.contrEquiv1 dot_S4000x512_S512x64_S4000x64_1_0_0_1_n_n 512 rfl rfl).symm k) = lrow0 j k := funext fun a => Fin.ext (by
    match a with
    | ⟨0, _⟩ => exact lhsIdx0_row _ _
    | ⟨1, _⟩ => exact (lhsIdx0_col _ _).trans hk)
  have er : dot_S4000x512_S512x64_S4000x64_1_0_0_1_n_n.rhsIdx j ((ValueIdx.contrEquiv1 dot_S4000x512_S512x64_S4000x64_1_0_0_1_n_n 512 rfl rfl).symm k) = rcol0 j k := funext fun a => Fin.ext (by
    match a with
    | ⟨0, _⟩ => exact (rhsIdx0_row _ _).trans hk
    | ⟨1, _⟩ => exact rhsIdx0_col _ _)
  rw [el, er]
  rfl

/-! ## Region 1: a [4000, 64] block times the whole [64, 40] weight matrix -/

/-- In the product's left operand the row is the output's row, -/
theorem lhsIdx1_row (j : S4000x40.Idx) (q : dot_S4000x64_S64x40_S4000x40_1_0_0_1_n_n.contr.Idx) :
    (dot_S4000x64_S64x40_S4000x40_1_0_0_1_n_n.lhsIdx j q 0).val = (j 0).val := by
  unfold DotDims.lhsIdx
  rw [dif_neg (show ¬(0 : Fin S4000x64.rank) ∈ dot_S4000x64_S64x40_S4000x40_1_0_0_1_n_n.lhsBatch by decide), dif_pos (show (0 : Fin S4000x64.rank) ∈ dot_S4000x64_S64x40_S4000x40_1_0_0_1_n_n.lhsNonContracting by decide)]
  rfl
/-- and the column is the contracted coordinate; -/
theorem lhsIdx1_col (j : S4000x40.Idx) (q : dot_S4000x64_S64x40_S4000x40_1_0_0_1_n_n.contr.Idx) :
    (dot_S4000x64_S64x40_S4000x40_1_0_0_1_n_n.lhsIdx j q 1).val = (q ⟨0, by decide⟩).val :=
  dot_S4000x64_S64x40_S4000x40_1_0_0_1_n_n.lhsIdx_val_of_single rfl j q
/-- in the right operand the row is the contracted coordinate, -/
theorem rhsIdx1_row (j : S4000x40.Idx) (q : dot_S4000x64_S64x40_S4000x40_1_0_0_1_n_n.contr.Idx) :
    (dot_S4000x64_S64x40_S4000x40_1_0_0_1_n_n.rhsIdx j q 0).val = (q ⟨0, by decide⟩).val :=
  dot_S4000x64_S64x40_S4000x40_1_0_0_1_n_n.rhsIdx_val_of_single rfl j q
/-- and the column is the output's column. -/
theorem rhsIdx1_col (j : S4000x40.Idx) (q : dot_S4000x64_S64x40_S4000x40_1_0_0_1_n_n.contr.Idx) :
    (dot_S4000x64_S64x40_S4000x40_1_0_0_1_n_n.rhsIdx j q 1).val = (j 1).val := by
  unfold DotDims.rhsIdx
  rw [dif_neg (show ¬(1 : Fin S64x40.rank) ∈ dot_S4000x64_S64x40_S4000x40_1_0_0_1_n_n.rhsBatch by decide), dif_pos (show (1 : Fin S64x40.rank) ∈ dot_S4000x64_S64x40_S4000x40_1_0_0_1_n_n.rhsNonContracting by decide)]
  rfl

/-- Entry (row of `j`, `k`) of the left block. -/
abbrev lrow1 (j : S4000x40.Idx) (k : Fin 64) : S4000x64.Idx := fun a => match a with
  | ⟨0, _⟩ => ⟨(j 0).val, (j 0).isLt⟩
  | ⟨1, _⟩ => ⟨k.val, k.isLt⟩
/-- Entry (`k`, column of `j`) of the weight matrix. -/
abbrev rcol1 (j : S4000x40.Idx) (k : Fin 64) : S64x40.Idx := fun a => match a with
  | ⟨0, _⟩ => ⟨k.val, k.isLt⟩
  | ⟨1, _⟩ => ⟨(j 1).val, (j 1).isLt⟩

/-- What the body stores, at entry `j` of the output block: the sum over `k` of the left block's entry
    (row of `j`, `k`) times the weight matrix's entry (`k`, column of `j`).  The narrowing of both operands to bf16
    is the identity on extended reals, and the accumulator the product starts from is zero. -/
theorem pay1_apply (x0 : Vec Ideal S4000x64 .f32) (x1 : Vec Ideal S64x40 .f32) (j : S4000x40.Idx) :
    k1_pay1 (F := Ideal) x0 x1 j = ∑ k : Fin 64, x0 (lrow1 j k) * x1 (rcol1 j k) := by
  unfold k1_pay1
  rw [shapeCast_self]
  refine (Ideal.matmul_constant_zero_apply dot_S4000x64_S64x40_S4000x40_1_0_0_1_n_n none _ _ j).trans ?_
  rw [← Equiv.sum_comp (ValueIdx.contrEquiv1 dot_S4000x64_S64x40_S4000x40_1_0_0_1_n_n 64 rfl rfl).symm]
  refine Finset.sum_congr rfl fun k _ => ?_
  have hk := ValueIdx.contrEquiv1_symm_val dot_S4000x64_S64x40_S4000x40_1_0_0_1_n_n 64 rfl rfl k
  have el : dot_S4000x64_S64x40_S4000x40_1_0_0_1_n_n.lhsIdx j ((ValueIdx.contrEquiv1 dot_S4000x64_S64x40_S4000x40_1_0_0_1_n_n 64 rfl rfl).symm k) = lrow1 j k := funext fun a => Fin.ext (by
    match a with
    | ⟨0, _⟩ => exact lhsIdx1_row _ _
    | ⟨1, _⟩ => exact (lhsIdx1_col _ _).trans hk)
  have er : dot_S4000x64_S64x40_S4000x40_1_0_0_1_n_n.rhsIdx j ((ValueIdx.contrEquiv1 dot_S4000x64_S64x40_S4000x40_1_0_0_1_n_n 64 rfl rfl).symm k) = rcol1 j k := funext fun a => Fin.ext (by
    match a with
    | ⟨0, _⟩ => exact (rhsIdx1_row _ _).trans hk
    | ⟨1, _⟩ => exact rhsIdx1_col _ _)
  rw [el, er]
  rfl

end Cert.KernelIdeal.Payload

end
-- ==== Proof.HostProduct.lean ====
/-
  The reference's two matrix products, each as ONE function of its operands and read at an index: the host's
  `dot_general` with one contracted axis is, at extended reals, the plain sum over that axis of the products of
  the operands' entries.
-/
import proofs.«166497_j27315992003070_1_alg».proof.Proof.Gen.ReferenceIdeal
import Idealize.ShloMosaic.Lib.ValueIdx
import Idealize.ShloMosaic.Lib.Pipeline.Value
import Idealize.ShloMosaic.PureOps.Ideal.Laws

noncomputable section

namespace Cert.ReferenceIdeal.Product

open Cert.ReferenceIdeal Cert.ReferenceIdeal.Gen Idealize.ShloMosaic Idealize.ShloMosaic.TcCoe Idealize.SL.Sem

/-! ## Product 0: a [100000, 512] array times a [512, 64] weight matrix -/

/-- In the product's left operand the row is the output's row, -/
theorem lhsIdx0_row (i : S100000x64.Idx) (q : dot_S100000x512_S512x64_S100000x64_1_0_0_1_n_n.contr.Idx) :
    (dot_S100000x512_S512x64_S100000x64_1_0_0_1_n_n.lhsIdx i q 0).val = (i 0).val := by
  unfold DotDims.lhsIdx
  rw [dif_neg (show ¬(0 : Fin S100000x512.rank) ∈ dot_S100000x512_S512x64_S100000x64_1_0_0_1_n_n.lhsBatch by decide), dif_pos (show (0 : Fin S100000x512.rank) ∈ dot_S100000x512_S512x64_S100000x64_1_0_0_1_n_n.lhsNonContracting by decide)]
  rfl
/-- and the column is the contracted coordinate; -/
theorem lhsIdx0_col (i : S100000x64.Idx) (q : dot_S100000x512_S512x64_S100000x64_1_0_0_1_n_n.contr.Idx) :
    (dot_S100000x512_S512x64_S100000x64_1_0_0_1_n_n.lhsIdx i q 1).val = (q ⟨0, by decide⟩).val :=
  dot_S100000x512_S512x64_S100000x64_1_0_0_1_n_n.lhsIdx_val_of_single rfl i q
/-- in the right operand the row is the contracted coordinate, -/
theorem rhsIdx0_row (i : S100000x64.Idx) (q : dot_S100000x512_S512x64_S100000x64_1_0_0_1_n_n.contr.Idx) :
    (dot_S100000x512_S512x64_S100000x64_1_0_0_1_n_n.rhsIdx i q 0).val = (q ⟨0, by decide⟩).val :=
  dot_S100000x512_S512x64_S100000x64_1_0_0_1_n_n.rhsIdx_val_of_single rfl i q
/-- and the column is the output's column. -/
theorem rhsIdx0_col (i : S100000x64.Idx) (q : dot_S100000x512_S512x64_S100000x64_1_0_0_1_n_n.contr.Idx) :
    (dot_S100000x512_S512x64_S100000x64_1_0_0_1_n_n.rhsIdx i q 1).val = (i 1).val := by
  unfold DotDims.rhsIdx
  rw [dif_neg (show ¬(1 : Fin S512x64.rank) ∈ dot_S100000x512_S512x64_S100000x64_1_0_0_1_n_n.rhsBatch by decide), dif_pos (show (1 : Fin S512x64.rank) ∈ dot_S100000x512_S512x64_S100000x64_1_0_0_1_n_n.rhsNonContracting by decide)]
  rfl

/-- Entry (row of `i`, `k`) of the left array. -/
abbrev arow0 (i : S100000x64.Idx) (k : Fin 512) : S100000x512.Idx := fun a => match a with
  | ⟨0, _⟩ => ⟨(i 0).val, (i 0).isLt⟩
  | ⟨1, _⟩ => ⟨k.val, k.isLt⟩
/-- Entry (`k`, column of `i`) of the weight matrix. -/
abbrev wcol0 (i : S100000x64.Idx) (k : Fin 512) : S512x64.Idx := fun a => match a with
  | ⟨0, _⟩ => ⟨k.val, k.isLt⟩
  | ⟨1, _⟩ => ⟨(i 1).val, (i 1).isLt⟩

/-- The whole product on the host, as one function of its two operands. -/
def product0 (A : S100000x512.Idx → EReal) (B : S512x64.Idx → EReal) : S100000x64.Idx → EReal :=
  Host.dotGeneral (F := Ideal) (φ₁ := .f32) (φ₂ := .f32) dot_S100000x512_S512x64_S100000x64_1_0_0_1_n_n none A B

/-- Entry `i` of the host's product is the sum over `k` of  A(row of `i`, `k`) · B(`k`, column of `i`). -/
theorem product0_apply (A : S100000x512.Idx → EReal) (B : S512x64.Idx → EReal) (i : S100000x64.Idx) :
    product0 A B i = ∑ k : Fin 512, A (arow0 i k) * B (wcol0 i k) := by
  unfold product0
  simp only [Host.dotGeneral]
  rw [Ideal.dotGeneral_apply, ← Equiv.sum_comp (ValueIdx.contrEquiv1 dot_S100000x512_S512x64_S100000x64_1_0_0_1_n_n 512 rfl rfl).symm]
  refine Finset.sum_congr rfl fun k _ => ?_
  have hk := ValueIdx.contrEquiv1_symm_val dot_S100000x512_S512x64_S100000x64_1_0_0_1_n_n 512 rfl rfl k
  have el : dot_S100000x512_S512x64_S100000x64_1_0_0_1_n_n.lhsIdx i ((ValueIdx.contrEquiv1 dot_S100000x512_S512x64_S100000x64_1_0_0_1_n_n 512 rfl rfl).symm k) = arow0 i k := funext fun a => Fin.ext (by
    match a with
    | ⟨0, _⟩ => exact lhsIdx0_row _ _
    | ⟨1, _⟩ => exact (lhsIdx0_col _ _).trans hk)
  have er : dot_S100000x512_S512x64_S100000x64_1_0_0_1_n_n.rhsIdx i ((ValueIdx.contrEquiv1 dot_S100000x512_S512x64_S100000x64_1_0_0_1_n_n 512 rfl rfl).symm k) = wcol0 i k := funext fun a => Fin.ext (by
    match a with
    | ⟨0, _⟩ => exact (rhsIdx0_row _ _).trans hk
    | ⟨1, _⟩ => exact rhsIdx0_col _ _)
  rw [el, er]

/-! ## Product 1: a [100000, 64] array times a [64, 40] weight matrix -/

/-- In the product's left operand the row is the output's row, -/
theorem lhsIdx1_row (i : S100000x40.Idx) (q : dot_S100000x64_S64x40_S100000x40_1_0_0_1_n_n.contr.Idx) :
    (dot_S100000x64_S64x40_S100000x40_1_0_0_1_n_n.lhsIdx i q 0).val = (i 0).val := by
  unfold DotDims.lhsIdx
  rw [dif_neg (show ¬(0 : Fin S100000x64.rank) ∈ dot_S100000x64_S64x40_S100000x40_1_0_0_1_n_n.lhsBatch by decide), dif_pos (show (0 : Fin S100000x64.rank) ∈ dot_S100000x64_S64x40_S100000x40_1_0_0_1_n_n.lhsNonContracting by decide)]
  rfl
/-- and the column is the contracted coordinate; -/
theorem lhsIdx1_col (i : S100000x40.Idx) (q : dot_S100000x64_S64x40_S100000x40_1_0_0_1_n_n.contr.Idx) :
    (dot_S100000x64_S64x40_S100000x40_1_0_0_1_n_n.lhsIdx i q 1).val = (q ⟨0, by decide⟩).val :=
  dot_S100000x64_S64x40_S100000x40_1_0_0_1_n_n.lhsIdx_val_of_single rfl i q
/-- in the right operand the row is the contracted coordinate, -/
theorem rhsIdx1_row (i : S100000x40.Idx) (q : dot_S100000x64_S64x40_S100000x40_1_0_0_1_n_n.contr.Idx) :
    (dot_S100000x64_S64x40_S100000x40_1_0_0_1_n_n.rhsIdx i q 0).val = (q ⟨0, by decide⟩).val :=
  dot_S100000x64_S64x40_S100000x40_1_0_0_1_n_n.rhsIdx_val_of_single rfl i q
/-- and the column is the output's column. -/
theorem rhsIdx1_col (i : S100000x40.Idx) (q : dot_S100000x64_S64x40_S100000x40_1_0_0_1_n_n.contr.Idx) :
    (dot_S100000x64_S64x40_S100000x40_1_0_0_1_n_n.rhsIdx i q 1).val = (i 1).val := by
  unfold DotDims.rhsIdx
  rw [dif_neg (show ¬(1 : Fin S64x40.rank) ∈ dot_S100000x64_S64x40_S100000x40_1_0_0_1_n_n.rhsBatch by decide), dif_pos (show (1 : Fin S64x40.rank) ∈ dot_S100000x64_S64x40_S100000x40_1_0_0_1_n_n.rhsNonContracting by decide)]
  rfl

/-- Entry (row of `i`, `k`) of the left array. -/
abbrev arow1 (i : S100000x40.Idx) (k : Fin 64) : S100000x64.Idx := fun a => match a with
  | ⟨0, _⟩ => ⟨(i 0).val, (i 0).isLt⟩
  | ⟨1, _⟩ => ⟨k.val, k.isLt⟩
/-- Entry (`k`, column of `i`) of the weight matrix. -/
abbrev wcol1 (i : S100000x40.Idx) (k : Fin 64) : S64x40.Idx := fun a => match a with
  | ⟨0, _⟩ => ⟨k.val, k.isLt⟩
  | ⟨1, _⟩ => ⟨(i 1).val, (i 1).isLt⟩

/-- The whole product on the host, as one function of its two operands. -/
def product1 (A : S100000x64.Idx → EReal) (B : S64x40.Idx → EReal) : S100000x40.Idx → EReal :=
  Host.dotGeneral (F := Ideal) (φ₁ := .f32) (φ₂ := .f32) dot_S100000x64_S64x40_S100000x40_1_0_0_1_n_n none A B

/-- Entry `i` of the host's product is the sum over `k` of  A(row of `i`, `k`) · B(`k`, column of `i`). -/
theorem product1_apply (A : S100000x64.Idx → EReal) (B : S64x40.Idx → EReal) (i : S100000x40.Idx) :
    product1 A B i = ∑ k : Fin 64, A (arow1 i k) * B (wcol1 i k) := by
  unfold product1
  simp only [Host.dotGeneral]
  rw [Ideal.dotGeneral_apply, ← Equiv.sum_comp (ValueIdx.contrEquiv1 dot_S100000x64_S64x40_S100000x40_1_0_0_1_n_n 64 rfl rfl).symm]
  refine Finset.sum_congr rfl fun k _ => ?_
  have hk := ValueIdx.contrEquiv1_symm_val dot_S100000x64_S64x40_S100000x40_1_0_0_1_n_n 64 rfl rfl k
  have el : dot_S100000x64_S64x40_S100000x40_1_0_0_1_n_n.lhsIdx i ((ValueIdx.contrEquiv1 dot_S100000x64_S64x40_S100000x40_1_0_0_1_n_n 64 rfl rfl).symm k) = arow1 i k := funext fun a => Fin.ext (by
    match a with
    | ⟨0, _⟩ => exact lhsIdx1_row _ _
    | ⟨1, _⟩ => exact (lhsIdx1_col _ _).trans hk)
  have er : dot_S100000x64_S64x40_S100000x40_1_0_0_1_n_n.rhsIdx i ((ValueIdx.contrEquiv1 dot_S100000x64_S64x40_S100000x40_1_0_0_1_n_n 64 rfl rfl).symm k) = wcol1 i k := funext fun a => Fin.ext (by
    match a with
    | ⟨0, _⟩ => exact (rhsIdx1_row _ _).trans hk
    | ⟨1, _⟩ => exact rhsIdx1_col _ _)
  rw [el, er]

end Cert.ReferenceIdeal.Product

end
-- ==== Proof.MatmulArray.lean ====
/-
  From blocks to the array.  Each region is a grid of 25 points; point t stages rows [4000·t, 4000·t + 4000) of its left
  operand and the whole weight matrix, and writes back rows [4000·t, 4000·t + 4000) of the output.  Since the
  contracted axis is never split, entry (4000·t + p, q) of the output is exactly entry (4000·t + p, q) of the WHOLE
  product, and the 25 row blocks tile the output: after the region the output array IS the whole product of the
  two arrays the region found, whatever those are.
-/
import proofs.«166497_j27315992003070_1_alg».proof.Proof.Gen.KernelIdeal.Frame
import proofs.«166497_j27315992003070_1_alg».proof.Proof.MatmulPayload
import proofs.«166497_j27315992003070_1_alg».proof.Proof.HostProduct

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.Pipeline (Dat Cfg Window)

-- the buffer contents when a region is entered: every statement here holds for any
variable (V : (c : Dev nD) → (b : Ref sig .tc) → Buf (Elt Ideal) ((c : Thread nD τ).loc b))

/-- Every access of both bodies starts at the block's origin. -/
theorem hz : (![0, 0] : Fin 2 → Nat) = fun _ => 0 := funext fun a => by fin_cases a <;> rfl

/-! ## Region 0: rows [4000·t, 4000·t + 4000) of a [100000, 512] array times the whole [512, 64] weight matrix, for t < 25 -/

/-- The printed index maps, decided over the 25 grid points: the left operand's row block is the output's, its column
    block is 0; the weight matrix is always block (0, 0); the output's column block is 0. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- Every one of the 25 row blocks is some grid point's. -/
theorem idx_onto0 : ∀ q : Fin 25, ∃ t : Fin cfg0.N, win0_2.index t = ![q.val, 0] :=
  (by decide +kernel : ∀ q : Fin 25, ∃ t : Fin grid0.N, win0_2.index t = ![q.val, 0])

/-- One entry of a block product against one entry of the whole product: if row `j 0` of the left block is row `i 0` of
    the whole left array and column `j 1` of the output block is column `i 1` of the whole output, the two sums over the
    contracted axis agree term by term. -/
theorem entry0 (x0 : Vec Ideal S4000x512 .f32) (x1 : Vec Ideal S512x64 .f32) (A : S100000x512.Idx → EReal) (B : S512x64.Idx → EReal)
    (j : S4000x64.Idx) (i : S100000x64.Idx)
    (h0 : ∀ k : Fin 512, x0 (Cert.KernelIdeal.Payload.lrow0 j k) = A (Cert.ReferenceIdeal.Product.arow0 i k))
    (h1 : ∀ k : Fin 512, x1 (Cert.KernelIdeal.Payload.rcol0 j k) = B (Cert.ReferenceIdeal.Product.wcol0 i k)) :
    k0_pay1 (F := Ideal) x0 x1 j = Cert.ReferenceIdeal.Product.product0 A B i := by
  rw [Cert.KernelIdeal.Payload.pay0_apply, Cert.ReferenceIdeal.Product.product0_apply]
  exact Finset.sum_congr rfl fun k _ => by rw [h0 k, h1 k]

/-- WHAT POINT `t` WRITES BACK is block `t` of the whole product of the two arrays as the region finds them. -/
theorem flushed0_eq (c : Dev nD) (t : Fin cfg0.N) :
    (dat0 (F := Ideal) V c).flushed 2 t
      = ((cfg0.win 2).blk t).view.read (Elt Ideal) (Cert.ReferenceIdeal.Product.product0 (V c main_arg0) (V c main_arg4)) := by
  show (cfg0.win 2).cut (grid0.coords t) ((dat0 V c).after 2 t) = _
  rw [after0_2]
  unfold out0_2
  rw [View.canon_unit_zero hz]
  simp only [View.ld_unit_zero (S := S4000x512) hz, View.ld_unit_zero (S := S512x64) hz]
  obtain ⟨e0, e1, e2, e3, e4⟩ := idx_facts0 t
  funext j
  show k0_pay1 (F := Ideal) (iblk0 V c 0 t) (iblk0 V c 1 t) j
    = Cert.ReferenceIdeal.Product.product0 (V c main_arg0) (V c main_arg4) (((cfg0.win 2).blk t).view.emb j)
  refine entry0 _ _ _ _ j _ (fun k => ?_) (fun k => ?_)
  · show V c main_arg0 (((cfg0.win 0).blk t).view.emb (Cert.KernelIdeal.Payload.lrow0 j k)) = V c main_arg0 (Cert.ReferenceIdeal.Product.arow0 (((cfg0.win 2).blk t).view.emb j) k)
    refine congrArg _ (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 512 + 1 * k.val = k.val; omega
  · show V c main_arg4 (((cfg0.win 1).blk t).view.emb (Cert.KernelIdeal.Payload.rcol0 j k)) = V c main_arg4 (Cert.ReferenceIdeal.Product.wcol0 (((cfg0.win 2).blk t).view.emb j) k)
    refine congrArg _ (funext fun a => Fin.ext ?_)
    match a with
    | ⟨0, _⟩ => show win0_1.index t (0 : Fin 2) * 512 + 1 * k.val = k.val; omega
    | ⟨1, _⟩ => show win0_1.index t (1 : Fin 2) * 64 + 1 * (j 1).val = win0_2.index t (1 : Fin 2) * 64 + 1 * (j 1).val; omega

/-- An index of the output array is in point `t`'s block iff each coordinate is in the block's range on its axis. -/
theorem mem_blk0 (t : Fin cfg0.N) (i : S100000x64.Idx) :
    i ∈ ((cfg0.win 2).blk t).view.set ↔ ∀ a : Fin 2, win0_2.index t a * S4000x64.size a ≤ (i a).val ∧ (i a).val < win0_2.index t a * S4000x64.size a + S4000x64.size a := by
  show i ∈ ((View.whole main_v0).slice (win0_2.rect t)).set ↔ _
  rw [View.set_slice_whole, Rect.mem_set_unit]
  exact Iff.rfl

/-- The 25 row blocks cover the output array: row `r` is in block `r / 4000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 4000, by omega⟩
  have q0 : win0_2.index t (0 : Fin 2) = (i 0).val / 4000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 64 ≤ (i 1).val ∧ (i 1).val < win0_2.index t (1 : Fin 2) * 64 + 64; omega

/-- THE OUTPUT ARRAY after the region is the whole product of the two arrays the region found. -/
theorem array0 (c : Dev nD) :
    (dat0 (F := Ideal) V c).arrAt 2 cfg0.N = Cert.ReferenceIdeal.Product.product0 (V c main_arg0) (V c main_arg4) :=
  (dat0 (F := Ideal) V c).arrAt_eq_of_cover 2 _ (fun t _ => flushed0_eq V c t) cover0

/-! ## Region 1: rows [4000·t, 4000·t + 4000) of a [100000, 64] array times the whole [64, 40] weight matrix, for t < 25 -/

/-- The printed index maps, decided over the 25 grid points: the left operand's row block is the output's, its column
    block is 0; the weight matrix is always block (0, 0); the output's column block is 0. -/
theorem idx_facts1 : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0 :=
  (by decide +kernel : ∀ t : Fin grid1.N, _)

/-- Every one of the 25 row blocks is some grid point's. -/
theorem idx_onto1 : ∀ q : Fin 25, ∃ t : Fin cfg1.N, win1_2.index t = ![q.val, 0] :=
  (by decide +kernel : ∀ q : Fin 25, ∃ t : Fin grid1.N, win1_2.index t = ![q.val, 0])

/-- One entry of a block product against one entry of the whole product: if row `j 0` of the left block is row `i 0` of
    the whole left array and column `j 1` of the output block is column `i 1` of the whole output, the two sums over the
    contracted axis agree term by term. -/
theorem entry1 (x0 : Vec Ideal S4000x64 .f32) (x1 : Vec Ideal S64x40 .f32) (A : S100000x64.Idx → EReal) (B : S64x40.Idx → EReal)
    (j : S4000x40.Idx) (i : S100000x40.Idx)
    (h0 : ∀ k : Fin 64, x0 (Cert.KernelIdeal.Payload.lrow1 j k) = A (Cert.ReferenceIdeal.Product.arow1 i k))
    (h1 : ∀ k : Fin 64, x1 (Cert.KernelIdeal.Payload.rcol1 j k) = B (Cert.ReferenceIdeal.Product.wcol1 i k)) :
    k1_pay1 (F := Ideal) x0 x1 j = Cert.ReferenceIdeal.Product.product1 A B i := by
  rw [Cert.KernelIdeal.Payload.pay1_apply, Cert.ReferenceIdeal.Product.product1_apply]
  exact Finset.sum_congr rfl fun k _ => by rw [h0 k, h1 k]

/-- WHAT POINT `t` WRITES BACK is block `t` of the whole product of the two arrays as the region finds them. -/
theorem flushed1_eq (c : Dev nD) (t : Fin cfg1.N) :
    (dat1 (F := Ideal) V c).flushed 2 t
      = ((cfg1.win 2).blk t).view.read (Elt Ideal) (Cert.ReferenceIdeal.Product.product1 (V c main_v14) (V c main_arg5)) := by
  show (cfg1.win 2).cut (grid1.coords t) ((dat1 V c).after 2 t) = _
  rw [after1_2]
  unfold out1_2
  rw [View.canon_unit_zero hz]
  simp only [View.ld_unit_zero (S := S4000x64) hz, View.ld_unit_zero (S := S64x40) hz]
  obtain ⟨e0, e1, e2, e3, e4⟩ := idx_facts1 t
  funext j
  show k1_pay1 (F := Ideal) (iblk1 V c 0 t) (iblk1 V c 1 t) j
    = Cert.ReferenceIdeal.Product.product1 (V c main_v14) (V c main_arg5) (((cfg1.win 2).blk t).view.emb j)
  refine entry1 _ _ _ _ j _ (fun k => ?_) (fun k => ?_)
  · show V c main_v14 (((cfg1.win 0).blk t).view.emb (Cert.KernelIdeal.Payload.lrow1 j k)) = V c main_v14 (Cert.ReferenceIdeal.Product.arow1 (((cfg1.win 2).blk t).view.emb j) k)
    refine congrArg _ (funext fun a => Fin.ext ?_)
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 64 + 1 * k.val = k.val; omega
  · show V c main_arg5 (((cfg1.win 1).blk t).view.emb (Cert.KernelIdeal.Payload.rcol1 j k)) = V c main_arg5 (Cert.ReferenceIdeal.Product.wcol1 (((cfg1.win 2).blk t).view.emb j) k)
    refine congrArg _ (funext fun a => Fin.ext ?_)
    match a with
    | ⟨0, _⟩ => show win1_1.index t (0 : Fin 2) * 64 + 1 * k.val = k.val; omega
    | ⟨1, _⟩ => show win1_1.index t (1 : Fin 2) * 40 + 1 * (j 1).val = win1_2.index t (1 : Fin 2) * 40 + 1 * (j 1).val; omega

/-- An index of the output array is in point `t`'s block iff each coordinate is in the block's range on its axis. -/
theorem mem_blk1 (t : Fin cfg1.N) (i : S100000x40.Idx) :
    i ∈ ((cfg1.win 2).blk t).view.set ↔ ∀ a : Fin 2, win1_2.index t a * S4000x40.size a ≤ (i a).val ∧ (i a).val < win1_2.index t a * S4000x40.size a + S4000x40.size a := by
  show i ∈ ((View.whole main_v15).slice (win1_2.rect t)).set ↔ _
  rw [View.set_slice_whole, Rect.mem_set_unit]
  exact Iff.rfl

/-- The 25 row blocks cover the output array: row `r` is in block `r / 4000`. -/
theorem cover1 (i : S100000x40.Idx) : ∃ t : Fin cfg1.N, (cfg1.win 2).flush t = true ∧ i ∈ ((cfg1.win 2).blk t).view.set := by
  have hi0 : (i 0).val < 100000 := (i 0).isLt
  have hi1 : (i 1).val < 40 := (i 1).isLt
  obtain ⟨t, ht⟩ := idx_onto1 ⟨(i 0).val / 4000, by omega⟩
  have q0 : win1_2.index t (0 : Fin 2) = (i 0).val / 4000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 40 ≤ (i 1).val ∧ (i 1).val < win1_2.index t (1 : Fin 2) * 40 + 40; omega

/-- THE OUTPUT ARRAY after the region is the whole product of the two arrays the region found. -/
theorem array1 (c : Dev nD) :
    (dat1 (F := Ideal) V c).arrAt 2 cfg1.N = Cert.ReferenceIdeal.Product.product1 (V c main_v14) (V c main_arg5) :=
  (dat1 (F := Ideal) V c).arrAt_eq_of_cover 2 _ (fun t _ => flushed1_eq V c t) cover1

end Cert.KernelIdeal.Blocks

end
-- ==== Proof.KernelValue.lean ====
/-
  The idealized kernel's result as ONE function of its six arguments.  Walking the chain of boundary valuations back
  from the last one:  the result is layer 2's host part of region 1's output and the edge arrays;  region 1's output
  is the whole product of layer 1's result with the second weight matrix;  layer 1's result is its host part of
  region 0's output and the edge arrays;  region 0's output is the whole product of the node features with the first
  weight matrix.  No host operation and no region writes an argument, so wherever an argument is read along the way
  it is the launch memory's.
-/
import proofs.«166497_j27315992003070_1_alg».proof.Proof.KernelRun
import proofs.«166497_j27315992003070_1_alg».proof.Proof.HostTail
import proofs.«166497_j27315992003070_1_alg».proof.Proof.MatmulArray

set_option maxRecDepth 16384

noncomputable section

namespace Cert.KernelIdeal.Result

open Cert.KernelIdeal Cert.KernelIdeal.Gen Idealize.ShloMosaic Idealize.ShloMosaic.TcCoe Idealize.SL.Sem

/-- The two-layer network:  relu(A · (relu(A · (x · W₁)) · W₂)),  the sparse matrix A given by the edge arrays. -/
def net (x : (⟨S100000x512, .f32⟩ : BufTy).Contents (Elt Ideal)) (src dst : (⟨S1600000, .i32⟩ : BufTy).Contents (Elt Ideal))
    (w : (⟨S1600000, .f32⟩ : BufTy).Contents (Elt Ideal)) (w1 : (⟨S512x64, .f32⟩ : BufTy).Contents (Elt Ideal))
    (w2 : (⟨S64x40, .f32⟩ : BufTy).Contents (Elt Ideal)) : (⟨S100000x40, .f32⟩ : BufTy).Contents (Elt Ideal) :=
  Tail.layer2 (F := Ideal) (Cert.ReferenceIdeal.Product.product1
    (Tail.layer1 (F := Ideal) (Cert.ReferenceIdeal.Product.product0 x w1) src dst w) w2) src dst w

variable (m : (ℓ : Loc nD τ sig) → Buf (Elt Ideal) ℓ) (ρ : Dev nD → PrngReg)

/-- A buffer that is no array of region 0 is, at region 0's exit, as launched. -/
theorem W1_kept (c : Dev nD) (b : Ref sig .tc) (hb : ∀ w, Pipeline.arrRef spec0 w ≠ b) :
    W1 m ρ c (Proc.devRef .tc b) = m ((c : Thread nD τ).loc b) :=
  W1_of_ne m ρ c b hb

/-- Region 0's output array: the whole product of the node features with the first weight matrix. -/
theorem W1_product (c : Dev nD) :
    W1 m ρ c (Proc.devRef .tc main_v0) = Cert.ReferenceIdeal.Product.product0 (m ((c : Thread nD τ).loc main_arg0)) (m ((c : Thread nD τ).loc main_arg4)) :=
  (W1_arr m ρ c 2).trans (Blocks.array0 (V0 m ρ) c)

/-- Layer 1's result, at region 1's entry. -/
theorem W3_layer1 (c : Dev nD) :
    W3 m ρ c (Proc.devRef .tc main_v14)
      = Tail.layer1 (F := Ideal) (Cert.ReferenceIdeal.Product.product0 (m ((c : Thread nD τ).loc main_arg0)) (m ((c : Thread nD τ).loc main_arg4)))
          (m ((c : Thread nD τ).loc main_arg1)) (m ((c : Thread nD τ).loc main_arg2)) (m ((c : Thread nD τ).loc main_arg3)) := by
  refine (Tail.after_layer1 (W1 m ρ c)).trans ?_
  rw [W1_product m ρ c, W1_kept m ρ c main_arg1 (by decide), W1_kept m ρ c main_arg2 (by decide), W1_kept m ρ c main_arg3 (by decide)]

/-- An edge array or the second weight matrix, at region 1's entry, is as launched. -/
theorem W3_arg1 (c : Dev nD) : W3 m ρ c (Proc.devRef .tc main_arg1) = m ((c : Thread nD τ).loc main_arg1) :=
  (Tail.after_layer1_arg1 (W1 m ρ c)).trans (W1_kept m ρ c main_arg1 (by decide))
theorem W3_arg2 (c : Dev nD) : W3 m ρ c (Proc.devRef .tc main_arg2) = m ((c : Thread nD τ).loc main_arg2) :=
  (Tail.after_layer1_arg2 (W1 m ρ c)).trans (W1_kept m ρ c main_arg2 (by decide))
theorem W3_arg3 (c : Dev nD) : W3 m ρ c (Proc.devRef .tc main_arg3) = m ((c : Thread nD τ).loc main_arg3) :=
  (Tail.after_layer1_arg3 (W1 m ρ c)).trans (W1_kept m ρ c main_arg3 (by decide))
theorem W3_arg5 (c : Dev nD) : W3 m ρ c (Proc.devRef .tc main_arg5) = m ((c : Thread nD τ).loc main_arg5) :=
  (Tail.after_layer1_arg5 (W1 m ρ c)).trans (W1_kept m ρ c main_arg5 (by decide))

/-- Region 1's output array: the whole product of layer 1's result with the second weight matrix. -/
theorem W4_product (c : Dev nD) :
    W4 m ρ c (Proc.devRef .tc main_v15)
      = Cert.ReferenceIdeal.Product.product1 (Tail.layer1 (F := Ideal) (Cert.ReferenceIdeal.Product.product0 (m ((c : Thread nD τ).loc main_arg0)) (m ((c : Thread nD τ).loc main_arg4)))
          (m ((c : Thread nD τ).loc main_arg1)) (m ((c : Thread nD τ).loc main_arg2)) (m ((c : Thread nD τ).loc main_arg3))) (m ((c : Thread nD τ).loc main_arg5)) := by
  refine (W4_arr m ρ c 2).trans ((Blocks.array1 (V3 m ρ) c).trans ?_)
  show Cert.ReferenceIdeal.Product.product1 (W3 m ρ c (Proc.devRef .tc main_v14)) (W3 m ρ c (Proc.devRef .tc main_arg5)) = _
  rw [W3_layer1 m ρ c, W3_arg5 m ρ c]

/-- THE RESULT at the last boundary: the network of the six launch arrays. -/
theorem W6_result (c : Dev nD) :
    W6 m ρ c (Proc.devRef .tc main_v29)
      = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (Tail.after_layer2 (W4 m ρ c)).trans ?_
  rw [W4_product m ρ c,
    (W4_of_ne m ρ c main_arg1 (by decide)).trans (W3_arg1 m ρ c),
    (W4_of_ne m ρ c main_arg2 (by decide)).trans (W3_arg2 m ρ c),
    (W4_of_ne m ρ c main_arg3 (by decide)).trans (W3_arg3 m ρ c)]
  rfl

/-- The idealized kernel runs: every weakly fair execution terminates without a fault, the result buffer ends at the
    network of the launch arrays, and the arguments end as launched. -/
theorem run : θ_run defs (onTc (τ := τ) (main (F := Ideal))) ⟨m, fun _ => 0, ρ⟩ (fun r => ∀ c : Dev nD,
      r.2.mem ((c.tc : Thread nD τ).loc main_v29)
        = net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (W6_result m ρ c), (h c).2⟩) (RunValue.run_result m ρ)

end Cert.KernelIdeal.Result

end
-- ==== Proof.RefValue.lean ====
/-
  The reference computes the same network.  Its run ends with the result buffer at the composition of its forty host
  operations applied to the arguments; that composition is, read from the inside out:  the first whole product, layer
  1's host part, the second whole product, layer 2's host part — the kernel's function `net`, term for term (the
  dimension records of the two printed programs have the same fields).
-/
import proofs.«166497_j27315992003070_1_alg».proof.Proof.Gen.ReferenceIdeal.Run
import proofs.«166497_j27315992003070_1_alg».proof.Proof.KernelValue

set_option maxRecDepth 16384

noncomputable section

namespace Cert.ReferenceIdeal.RefValue

open Cert.ReferenceIdeal Cert.ReferenceIdeal.Gen Idealize.ShloMosaic Idealize.ShloMosaic.TcCoe Idealize.SL.Sem

/-- The reference run's result term, at extended reals, is the network of the same six arrays. -/
theorem result_eq (x0 : (⟨S100000x512, .f32⟩ : BufTy).Contents (Elt Ideal)) (x1 x2 : (⟨S1600000, .i32⟩ : BufTy).Contents (Elt Ideal))
    (x3 : (⟨S1600000, .f32⟩ : BufTy).Contents (Elt Ideal)) (x4 : (⟨S512x64, .f32⟩ : BufTy).Contents (Elt Ideal))
    (x5 : (⟨S64x40, .f32⟩ : BufTy).Contents (Elt Ideal)) :
    maximumf (F := Ideal) (Host.scatterAdd scatter_S100000x40_S1600000x1_S1600000x40_1_0_0_1 (broadcastInDim S100000x40 ![] bcast_S_S100000x40 (constant S_ .f32 0x00000000#32)) (broadcastInDim S1600000x1 ![0] bcast_S1600000_S1600000x1_0 (x2)) (mulf (Host.gather gather_S100000x40_S1600000x1_S1600000x40_1_0_n_n_0_1_140 (Host.dotGeneral (φ₁ := .f32) (φ₂ := .f32) dot_S100000x64_S64x40_S100000x40_1_0_0_1_n_n none (maximumf (Host.scatterAdd scatter_S100000x64_S1600000x1_S1600000x64_1_0_0_1 (broadcastInDim S100000x64 ![] bcast_S_S100000x64 (constant S_ .f32 0x00000000#32)) (broadcastInDim S1600000x1 ![0] bcast_S1600000_S1600000x1_0 (x2)) (mulf (Host.gather gather_S100000x64_S1600000x1_S1600000x64_1_0_n_n_0_1_164 (Host.dotGeneral (φ₁ := .f32) (φ₂ := .f32) dot_S100000x512_S512x64_S100000x64_1_0_0_1_n_n none (x0) (x4)) (broadcastInDim S1600000x1 ![0] bcast_S1600000_S1600000x1_0 (select (cmpi .slt (x1) (broadcastInDim S1600000 ![] bcast_S_S1600000 (constantI S_ 32 0#32))) (addi (x1) (broadcastInDim S1600000 ![] bcast_S_S1600000 (constantI S_ 32 100000#32))) (x1)))) (broadcastInDim S1600000x64 ![0, 1] bcast_S1600000x1_S1600000x64_0_1 (broadcastInDim S1600000x1 ![0] bcast_S1600000_S1600000x1_0 (x3))))) (broadcastInDim S100000x64 ![] bcast_S_S100000x64 (constant S_ .f32 0x00000000#32))) (x5)) (broadcastInDim S1600000x1 ![0] bcast_S1600000_S1600000x1_0 (select (cmpi .slt (x1) (broadcastInDim S1600000 ![] bcast_S_S1600000 (constantI S_ 32 0#32))) (addi (x1) (broadcastInDim S1600000 ![] bcast_S_S1600000 (constantI S_ 32 100000#32))) (x1)))) (broadcastInDim S1600000x40 ![0, 1] bcast_S1600000x1_S1600000x40_0_1 (broadcastInDim S1600000x1 ![0] bcast_S1600000_S1600000x1_0 (x3))))) (broadcastInDim S100000x40 ![] bcast_S_S100000x40 (constant S_ .f32 0x00000000#32))
      = Cert.KernelIdeal.Result.net x0 x1 x2 x3 x4 x5 := by
  unfold Cert.KernelIdeal.Result.net Cert.KernelIdeal.Tail.layer2 Cert.KernelIdeal.Tail.layer1
    Cert.ReferenceIdeal.Product.product1 Cert.ReferenceIdeal.Product.product0
  rfl

end Cert.ReferenceIdeal.RefValue

end
-- ==== Proof.lean ====
/-
  The certificate of a two-layer graph convolution,  out = relu(A · (relu(A · (x · W₁)) · W₂)),  where A is a sparse
  matrix given as an edge list (source, destination, weight).

  The kernel computes each of the two dense products in a Pallas call over 25 blocks of 4000 rows, narrowing both
  operands to bf16 on the way into the matrix unit and accumulating in f32 from zero; the sparse products (gather
  along the edges, scale, scatter-add, rectify) are host operations, the same ones the reference uses.  The
  reference computes the two dense products on the host.

  At extended reals the narrowing is the identity and a matrix-unit product into a zero accumulator is the plain sum
  over the contracted axis — the host's product.  The contracted axis is never split between blocks, so no sum is
  regrouped and no law beyond reading both sides at an index is needed; in particular finiteness of the inputs is
  never used.  The ideal pass rewrote nothing in the kernel, so the idealization claim is trivial.

  Modules:  KernelRun (the kernel's run with its result named at the last boundary valuation),  MatmulPayload (what
  a body stores, at an index),  HostProduct (the host's product, at an index),  MatmulArray (a region's output array
  is the whole product),  HostTail (the host part of a layer as one function),  KernelValue (the result as the
  network of the arguments),  RefValue (the reference's term is that network).
-/
import proofs.«166497_j27315992003070_1_alg».proof.Defs
import proofs.«166497_j27315992003070_1_alg».proof.Proof.Gen.Kernel
import proofs.«166497_j27315992003070_1_alg».proof.Proof.Gen.Kernel.Frame
import proofs.«166497_j27315992003070_1_alg».proof.Proof.Gen.KernelIdeal
import proofs.«166497_j27315992003070_1_alg».proof.Proof.Gen.KernelIdeal.Frame
import proofs.«166497_j27315992003070_1_alg».proof.Proof.Gen.ReferenceIdeal
import proofs.«166497_j27315992003070_1_alg».proof.Proof.Gen.ReferenceIdeal.Run
import proofs.«166497_j27315992003070_1_alg».proof.Proof.Gen.Pre_finite_inputs
import proofs.«166497_j27315992003070_1_alg».proof.Proof.KernelValue
import proofs.«166497_j27315992003070_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read at extended reals: nothing was rewritten. -/
theorem preserves : Cert.preserves_Kernel_KernelIdeal := trivial

/-- From memories that agree on the six arguments both programs end with the result buffer at the network of those
    arguments: the kernel by its run (KernelValue), the reference by its run and the equality of the two terms
    (RefValue). -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [e0, e1, e2, e3, e4, e5]
  exact Cert.ReferenceIdeal.RefValue.result_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
